-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩

abbrev nBuf : Space → Nat
  | .hbm => 117
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000, .f32⟩
  | .hbm, ⟨84, _⟩ => ⟨S1600000, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S1600000x1, .f32⟩
  | .hbm, ⟨95, _⟩ => ⟨S1600000x128, .f32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S_, .i32⟩
  | .hbm, ⟨109, _⟩ => ⟨S_, .f32⟩
  | .hbm, ⟨110, _⟩ => ⟨S128x128, .f32⟩
  | .hbm, ⟨111, _⟩ => ⟨S_, .i32⟩
  | .hbm, ⟨112, _⟩ => ⟨S_, .f32⟩
  | .hbm, ⟨113, _⟩ => ⟨S128, .f32⟩
  | .hbm, ⟨114, _⟩ => ⟨S1x128, .f32⟩
  | .hbm, ⟨115, _⟩ => ⟨S100000x128, .f32⟩
  | .hbm, ⟨116, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_15 : Ref sig .tc := ⟨.hbm, 108, rfl⟩
abbrev main_call0_v0 : Ref sig .tc := ⟨.hbm, 109, rfl⟩
abbrev main_v83 : Ref sig .tc := ⟨.hbm, 110, rfl⟩
abbrev main_c_16 : Ref sig .tc := ⟨.hbm, 111, rfl⟩
abbrev main_call1_v0 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S128x128_S128x128 : S128x128.ShapeCasts S128x128
  slices_S100000x128_S100000x40_0_0 : S100000x128.Slices ![0, 0] S100000x40
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x40, .f32⟩
  | 127 => ⟨S1x40, .f32⟩
  | _ => ⟨S100000x256, .f32⟩

abbrev hbmTy0_1 (i : Nat) : BufTy := match i % 128 with
  | 0 => ⟨S100000x40, .f32⟩
  | 1 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with every buffer named.

  @main is fourteen segments in a row — stretches of host operations and five pipelined kernel regions. Each segment
  starts from the buffer contents the one before it left, so the contents at the end are a fold through the segments
  from the launch memory: a stretch of host operations applies its operations in order, a region replaces each of its
  windows' arrays by what its write-backs leave and keeps every other buffer. Every weakly fair execution terminates
  with every buffer that outlives a region holding what that fold gives it.
-/
import proofs.«134568_j4612794876643_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    buffer that outlives a region ends at the fold of the segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the cells' initial one, and no core is handed anything besides
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
      -- each segment's post is the next one's pre as it stands; the last one's is regrouped
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch a core holds its unscoped buffers at the launch memory, its generator register, and owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      -- the buffers held at the end are read against the final state
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

end Cert.KernelIdeal.Whole

end
-- ==== Proof.Spec.lean ====
/-
  The dense stages of a two-layer graph convolution with a linear head, as functions of whole arrays on the
  extended reals.

  * `matProd x w`: the product of an `[m, k]` matrix with a `[k, n]` matrix — entry `(p, c)` is the sum over
    `l` of `x (p, l) · w (l, c)`.
  * `biasRelu a b`: a `[1, n]` row `b` added to every row of `a`, then the larger of that and the number the
    all-zero 32-bit word denotes, entry by entry.
  * `matProdBias x w b`: the product with the row `b` added to every row.
  * `rowOf b`: a vector as the one row of a `[1, n]` matrix.

  A sum on the extended reals may be taken in any order and grouping, so a product computed block of rows by
  block of rows is the same function of the whole matrices.
-/
import Idealize.ShloMosaic.PureOps.Ideal
import Idealize.ShloMosaic.Lib.ValueIdx

noncomputable section

namespace Cert.GcnSpec

open Idealize.ShloMosaic Idealize.ShloMosaic.ValueIdx

/-- The product of an `[m, k]` matrix with a `[k, n]` matrix: entry `(p, c)` is `∑ l, x (p, l) · w (l, c)`. -/
def matProd {m k n : ℕ} (x : FVec Ideal ⟨2, ![m, k]⟩ .f32) (w : FVec Ideal ⟨2, ![k, n]⟩ .f32) :
    FVec Ideal ⟨2, ![m, n]⟩ .f32 :=
  fun i => ∑ l : Fin k, x (ix2 (i 0 : Fin m) l) * w (ix2 l (i 1 : Fin n))

/-- A row added to every row of a matrix, then clamped below at the number the zero word denotes. -/
def biasRelu {m n : ℕ} (a : FVec Ideal ⟨2, ![m, n]⟩ .f32) (b : FVec Ideal ⟨2, ![1, n]⟩ .f32) :
    FVec Ideal ⟨2, ![m, n]⟩ .f32 :=
  fun i => max (a i + b (ix2 (0 : Fin 1) (i 1 : Fin n))) (Ideal.ofBits .f32 0x00000000#32)

/-- The product of two matrices with a row added to every row of it. -/
def matProdBias {m k n : ℕ} (x : FVec Ideal ⟨2, ![m, k]⟩ .f32) (w : FVec Ideal ⟨2, ![k, n]⟩ .f32)
    (b : FVec Ideal ⟨2, ![1, n]⟩ .f32) : FVec Ideal ⟨2, ![m, n]⟩ .f32 :=
  fun i => matProd x w i + b (ix2 (0 : Fin 1) (i 1 : Fin n))

/-- A vector laid out as a one-row matrix. -/
def rowOf {n : ℕ} (b : FVec Ideal ⟨1, ![n]⟩ .f32) : FVec Ideal ⟨2, ![1, n]⟩ .f32 :=
  fun i => b (ix1 (i 1 : Fin n))

theorem rowOf_apply {n : ℕ} (b : FVec Ideal ⟨1, ![n]⟩ .f32) (u : Fin 1) (c : Fin n) : rowOf b (ix2 u c) = b (ix1 c) := rfl

theorem matProd_apply {m k n : ℕ} (x : FVec Ideal ⟨2, ![m, k]⟩ .f32) (w : FVec Ideal ⟨2, ![k, n]⟩ .f32)
    (p : Fin m) (c : Fin n) : matProd x w (ix2 p c) = ∑ l : Fin k, x (ix2 p l) * w (ix2 l c) := rfl

theorem biasRelu_apply {m n : ℕ} (a : FVec Ideal ⟨2, ![m, n]⟩ .f32) (b : FVec Ideal ⟨2, ![1, n]⟩ .f32)
    (p : Fin m) (c : Fin n) :
    biasRelu a b (ix2 p c) = max (a (ix2 p c) + b (ix2 (0 : Fin 1) c)) (Ideal.ofBits .f32 0x00000000#32) := rfl

theorem matProdBias_apply {m k n : ℕ} (x : FVec Ideal ⟨2, ![m, k]⟩ .f32) (w : FVec Ideal ⟨2, ![k, n]⟩ .f32)
    (b : FVec Ideal ⟨2, ![1, n]⟩ .f32) (p : Fin m) (c : Fin n) :
    matProdBias x w b (ix2 p c) = (∑ l : Fin k, x (ix2 p l) * w (ix2 l c)) + b (ix2 (0 : Fin 1) c) := rfl

end Cert.GcnSpec

end
-- ==== Proof.GlueK.lean ====
/-
  The sparse part of a graph-convolution layer on the host, as functions of whole arrays: the edge list's two rows, an
  index wrapped into range, the inverse square root of the in-degree plus one, and the normalized aggregation — the sum
  over edges `(s → d)` of `h[s] · (dinv[s] · dinv[d])` into row `d`, plus the self term `h · dinv²`. They are carried as
  they are printed and never opened: both programs apply the same operations to their dense stages' results.
-/
import proofs.«134568_j4612794876643_1_alg».proof.Proof.Gen.KernelIdeal
import Idealize.ShloMosaic.PureOps.Ideal

noncomputable section

namespace Cert.KernelIdeal.Glue

open Cert.KernelIdeal Cert.KernelIdeal.Gen Idealize.ShloMosaic

/-- Row 0 of the `[2, E]` edge list: the edges' sources. -/
def srcOf (e : IVec S2x1600000 32) : IVec S1600000 32 :=
  shapeCast _ (extractStridedSlice S1x1600000 ![0, 0] e slices_S2x1600000_S1x1600000_0_0) shapeCasts_S1x1600000_S1600000

/-- Row 1 of the edge list: the edges' destinations. -/
def dstOf (e : IVec S2x1600000 32) : IVec S1600000 32 :=
  shapeCast _ (extractStridedSlice S1x1600000 ![1, 0] e slices_S2x1600000_S1x1600000_1_0) shapeCasts_S1x1600000_S1600000

/-- A negative index counted from the end: `v + 100000` where `v < 0`, else `v`. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- `rsqrt (in-degree + 1)`: ones scattered-and-added by destination, plus one, inverse square root. -/
def dinvOf (d : IVec S1600000 32) : FVec Ideal S100000 .f32 :=
  Host.rsqrt (F := Ideal) (addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32)))

/-- The normalized aggregation of `h` over the edges `(s → d)` with the self term. -/
def agg (s d : IVec S1600000 32) (dv : FVec Ideal S100000 .f32) (h : FVec Ideal S100000x128 .f32) : FVec Ideal S100000x128 .f32 :=
  addf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (mulf
        (Host.gather gather_S100000x128_S1600000x1_S1600000x128_1_0_n_n_0_1_1128 h
          (broadcastInDim S1600000x1 ![0] bcast_S1600000_S1600000x1_0 (wrap s)))
        (broadcastInDim S1600000x128 ![0, 1] bcast_S1600000x1_S1600000x128_0_1
          (broadcastInDim S1600000x1 ![0] bcast_S1600000_S1600000x1_0
            (mulf
              (Host.gather gather_S100000_S1600000x1_S1600000_n_0_n_n_0_1_1 dv
                (broadcastInDim S1600000x1 ![0] bcast_S1600000_S1600000x1_0 (wrap s)))
              (Host.gather gather_S100000_S1600000x1_S1600000_n_0_n_n_0_1_1 dv
                (broadcastInDim S1600000x1 ![0] bcast_S1600000_S1600000x1_0 (wrap d))))))))
    (mulf h (broadcastInDim S100000x128 ![0, 1] bcast_S100000x1_S100000x128_0_1
      (broadcastInDim S100000x1 ![0] bcast_S100000_S100000x1_0 (mulf dv dv))))

end Cert.KernelIdeal.Glue

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.KernelHead.lean ====
/-
  The kernel's padded head against the unpadded one.

  The kernel pads the `[128, 40]` weight with 88 further columns and the `[40]` bias with 88 further entries, multiplies
  and adds at width 128, and keeps columns `0 … 39` of the result. Column `c < 40` of the padded product is
  `∑ l, h (p, l) · pad W (l, c)` plus the padded bias's entry `c`; at such a column the padded weight is the weight and
  the padded bias the bias, so the kept columns are the unpadded product with the bias row — whatever the padding value.

  Also here: a `[128]` vector cast to a `[1, 128]` array is the vector as a row.
-/
import proofs.«134568_j4612794876643_1_alg».proof.Proof.Gen.KernelIdeal
import proofs.«134568_j4612794876643_1_alg».proof.Proof.Spec
import proofs.«134568_j4612794876643_1_alg».proof.Proof.LibUnitRow
import Idealize.ShloMosaic.PureOps.Ideal
import Idealize.ShloMosaic.Lib.Pipeline.Value
import Idealize.ShloMosaic.Lib.ValueIdx
import Idealize.ShloMosaic.Lib.KernelVsHost

noncomputable section

namespace Cert.KernelIdeal.Head

open Cert.KernelIdeal Cert.KernelIdeal.Gen Cert.GcnSpec
open Idealize.ShloMosaic Idealize.ShloMosaic.ValueIdx

/-- A `[128]` vector cast to a `[1, 128]` array is the vector as a row. -/
theorem row_eq (b : FVec Ideal S128 .f32) : shapeCast S1x128 b shapeCasts_S128_S1x128 = rowOf b := by
  funext i
  obtain ⟨u, j, rfl⟩ : ∃ (u : Fin 1) (j : Fin 128), i = ix2 u j := ⟨i 0, i 1, eq_ix2 i⟩
  exact Cert.LibUnitRow.unitRow_apply b shapeCasts_S128_S1x128 u j

/-- The padded weight at a column below 40 is the weight. -/
theorem padW_apply (w : FVec Ideal S128x40 .f32) (z : FVec Ideal S_ .f32) (l : Fin 128) (c : Fin 40) :
    pad S128x128 ![0, 0] ![0, 88] ![0, 0] w z pads_S128x40_S128x128_000_0880 h_S_ (ix2 l (⟨c.val, by omega⟩ : Fin 128)) = w (ix2 l c) :=
  pad_apply_of_inside ![0, 0] ![0, 88] ![0, 0] w z pads_S128x40_S128x128_000_0880 h_S_ _ (ix2 l c) (fun a => by
    match a with
    | ⟨0, _⟩ => show l.val = 0 + l.val * (0 + 1); omega
    | ⟨1, _⟩ => show c.val = 0 + c.val * (0 + 1); omega)

/-- The padded bias at an entry below 40 is the bias. -/
theorem padB_apply (b : FVec Ideal S40 .f32) (z : FVec Ideal S_ .f32) (c : Fin 40) :
    pad S128 ![0] ![88] ![0] b z pads_S40_S128_0880 h_S_ (ix1 (⟨c.val, by omega⟩ : Fin 128)) = b (ix1 c) :=
  pad_apply_of_inside ![0] ![88] ![0] b z pads_S40_S128_0880 h_S_ _ (ix1 c) (fun a => by
    match a with
    | ⟨0, _⟩ => show c.val = 0 + c.val * (0 + 1); omega)

/-- Columns `0 … 39` of the padded head are the unpadded head. -/
theorem head_slice (h : FVec Ideal S100000x128 .f32) (w : FVec Ideal S128x40 .f32) (b : FVec Ideal S40 .f32)
    (z z' : FVec Ideal S_ .f32) :
    extractStridedSlice S100000x40 ![0, 0]
        (matProdBias h (pad S128x128 ![0, 0] ![0, 88] ![0, 0] w z pads_S128x40_S128x128_000_0880 h_S_)
          (shapeCast S1x128 (pad S128 ![0] ![88] ![0] b z' pads_S40_S128_0880 h_S_) shapeCasts_S128_S1x128))
        slices_S100000x128_S100000x40_0_0
      = matProdBias h w (rowOf b) := by
  funext i
  obtain ⟨p, c, rfl⟩ : ∃ (p : Fin 100000) (c : Fin 40), i = ix2 p c := ⟨i 0, i 1, eq_ix2 i⟩
  rw [extractStridedSlice_apply ![0, 0] _ slices_S100000x128_S100000x40_0_0 (ix2 p c) (ix2 p (⟨c.val, by omega⟩ : Fin 128)) (fun a => by
    match a with
    | ⟨0, _⟩ => show p.val = 0 + p.val; omega
    | ⟨1, _⟩ => show c.val = 0 + c.val; omega)]
  rw [matProdBias_apply, matProdBias_apply, rowOf_apply, row_eq, rowOf_apply, padB_apply]
  exact congrArg (· + b (ix1 c)) (Finset.sum_congr rfl fun l _ => by rw [padW_apply])

end Cert.KernelIdeal.Head

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.Mul0.lean ====
/-
  The first layer's matrix-product region (pipeline 0 of @main), read as a function of whole arrays.

  The region's grid has twenty points. Point `t` stages rows `5000·t … 5000·t + 4999` of the `[100000, 256]` left
  matrix and the whole `[256, 128]` right matrix, and writes back the same rows of the `[100000, 128]` output. The body
  narrows both staged operands to a 16-bit format — the identity on the extended reals — and multiplies them into a zero
  accumulator: entry `(p, q)` of the block is the sum over `l` of the staged left entry `(p, l)` times the right entry
  `(l, q)`. A row of the product depends only on the same row of the left matrix, so what point `t` writes back is its
  block of ONE function of the whole matrices, their product, and the twenty blocks cover the output.
-/
import proofs.«134568_j4612794876643_1_alg».proof.Proof.Gen.KernelIdeal.Frame
import proofs.«134568_j4612794876643_1_alg».proof.Proof.Spec
import proofs.«134568_j4612794876643_1_alg».proof.Proof.LibRowOps
import Idealize.ShloMosaic.Lib.Pipeline.Value
import Idealize.ShloMosaic.Lib.ValueIdx

set_option maxRecDepth 16384

noncomputable section

namespace Cert.KernelIdeal.Mul0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The dimension numbers: the left operand's row is the result's row, its column the contracted coordinate; the right
    operand's row is the contracted coordinate, its column the result's column. -/

theorem lhs_row (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_col (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem rhs_row (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem rhs_col (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's stored value at entry `(p, q)` of the block: the sum over `l` of the staged products. -/
theorem pay_apply (x0 : FVec Ideal S5000x256 .f32) (x1 : FVec Ideal S256x128 .f32) (p : Fin 5000) (q : Fin 128) :
    k0_pay1 x0 x1 (ix2 p q) = ∑ l : Fin 256, x0 (ix2 p l) * x1 (ix2 l q) := by
  unfold k0_pay1
  exact Cert.LibRowOps.matmul_zero_apply dot_S5000x256_S256x128_S5000x128_1_0_0_1_n_n none
    (truncf .bf16 x0 bitsLt_bf16_f32) (truncf .bf16 x1 bitsLt_bf16_f32) rfl rfl lhs_row lhs_col rhs_row rhs_col p q

/-- The stored value at an entry of the block is the product of the whole matrices at the entry of the array it sits at,
    when the staged left rows are the left matrix's rows and the staged right matrix is the right matrix. -/
theorem entry_eq (A : FVec Ideal S100000x256 .f32) (W : FVec Ideal S256x128 .f32)
    (x0 : FVec Ideal S5000x256 .f32) (x1 : FVec Ideal S256x128 .f32) (y : S5000x128.Idx) (i : S100000x128.Idx)
    (h0 : ∀ l : Fin 256, x0 (ix2 (y 0 : Fin 5000) l) = A (ix2 (i 0 : Fin 100000) l))
    (h1 : ∀ (l : Fin 256) (q : Fin 128), x1 (ix2 l q) = W (ix2 l q)) (hq : (i 1).val = (y 1).val) :
    k0_pay1 x0 x1 y = matProd A W i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  rw [pay_apply, matProd_apply]
  exact Finset.sum_congr rfl fun l _ => by rw [show x0 (ix2 p l) = A (ix2 r l) from h0 l, h1 l s]

/-- The printed index maps over the grid: the left matrix's and the output's blocks are block `t` of the rows, the right
    matrix's is the one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block's entry `(p, l)` is the left matrix's entry at row `5000·t + p`. -/
theorem left_read (c : Dev nD) (t : Fin cfg0.N) (y : S5000x256.Idx) (k : S100000x256.Idx)
    (hk0 : (k 0).val = win0_0.index t (0 : Fin 2) * 5000 + (y 0).val) (hk1 : (k 1).val = win0_0.index t (1 : Fin 2) * 256 + (y 1).val) :
    iblk0 V c 0 t y = V c main_arg0 k := by
  show V c main_arg0 (((cfg0.win 0).blk t).view.emb y) = V c main_arg0 k
  refine congrArg (V c main_arg0) (funext fun a => Fin.ext ?_)
  match a with
  | ⟨0, _⟩ => show win0_0.index t (0 : Fin 2) * 5000 + 1 * (y 0).val = (k 0).val; omega
  | ⟨1, _⟩ => show win0_0.index t (1 : Fin 2) * 256 + 1 * (y 1).val = (k 1).val; omega

/-- The right block is the right matrix. -/
theorem right_read (c : Dev nD) (t : Fin cfg0.N) (y : S256x128.Idx)
    (h0 : win0_1.index t (0 : Fin 2) = 0) (h1 : win0_1.index t (1 : Fin 2) = 0) :
    iblk0 V c 1 t y = V c main_arg2 y := by
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- What point `t` writes back is block `t` of the product of the matrices as the region finds them. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  refine entry_eq (V c main_arg0) (V c main_arg2) (iblk0 V c 0 t) (iblk0 V c 1 t) j (((cfg0.win 2).blk t).view.emb j) ?_ ?_ ?_
  · intro l
    refine left_read V c t _ _ ?_ ?_
    · show win0_2.index t (0 : Fin 2) * 5000 + 1 * (j 0).val = win0_0.index t (0 : Fin 2) * 5000 + (j 0).val; omega
    · show l.val = win0_0.index t (1 : Fin 2) * 256 + l.val; omega
  · intro l q
    exact right_read V c t _ e2 e3
  · show win0_2.index t (1 : Fin 2) * 128 + 1 * (j 1).val = (j 1).val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- Every entry of the output is in the block of the point its row falls to. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The output array after the region: the product of the matrices as the region finds them. -/
theorem final (c : Dev nD) : (dat0 V c).arrAt 2 cfg0.N = matProd (V c main_arg0) (V c main_arg2) :=
  (dat0 V c).arrAt_eq_of_cover 2 (matProd (V c main_arg0) (V c main_arg2)) (fun t _ => flushed_eq V c t) cover

end Cert.KernelIdeal.Mul0

end
-- ==== Proof.Act1.lean ====
/-
  The first layer's bias-and-clamp region (pipeline 1 of @main), read as a function of whole arrays.

  The region's grid has twenty points. Point `t` stages rows `5000·t … 5000·t + 4999` of the `[100000, 128]` input
  and the whole `[1, 128]` row, and writes back the same rows of the output. The body adds the row to every staged
  row and takes, entry by entry, the larger of that and the number the zero word denotes. So what point `t` writes
  back is its block of ONE function of the whole arrays, `biasRelu`, and the twenty blocks cover the output.
-/
import proofs.«134568_j4612794876643_1_alg».proof.Proof.Gen.KernelIdeal.Frame
import proofs.«134568_j4612794876643_1_alg».proof.Proof.Spec
import Idealize.ShloMosaic.Lib.Pipeline.Value
import Idealize.ShloMosaic.Lib.ValueIdx

set_option maxRecDepth 16384

noncomputable section

namespace Cert.KernelIdeal.Act1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)` of the block: the staged entry plus the row's entry `q`, clamped below. -/
theorem pay_apply (x0 : FVec Ideal S5000x128 .f32) (x1 : FVec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self]
  rw [broadcastTo_apply x1 broadcasts_S1x128_S5000x128 (ix2 p q) (ix2 (0 : Fin 1) q) (fun a => by
    match a with
    | ⟨0, _⟩ => rfl
    | ⟨1, _⟩ => rfl)]
  rfl

/-- The stored value at an entry of the block is `biasRelu` of the whole arrays at the entry of the array the block's
    entry sits at, when the staged input holds the array's entries of the same rows and the staged row is the row. -/
theorem entry_eq (A : FVec Ideal S100000x128 .f32) (B : FVec Ideal S1x128 .f32)
    (x0 : FVec Ideal S5000x128 .f32) (x1 : FVec Ideal S1x128 .f32) (y : S5000x128.Idx) (i : S100000x128.Idx)
    (h0 : x0 y = A i) (h1 : ∀ q : Fin 128, x1 (ix2 (0 : Fin 1) q) = B (ix2 (0 : Fin 1) q)) (hq : (i 1).val = (y 1).val) :
    k1_pay1 x0 x1 y = biasRelu A B i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  rw [pay_apply, biasRelu_apply, h0, h1]

/-- The printed index maps over the grid: the input's and the output's blocks are block `t` of the rows, the row's is
    the one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the arrays as the region finds them. -/
theorem flushed_eq (c : Dev nD) (t : Fin cfg1.N) :
    (dat1 V c).flushed 2 t = ((cfg1.win 2).blk t).view.read (Elt Ideal) (biasRelu (V c main_v44) (V c main_v45)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  refine entry_eq (V c main_v44) (V c main_v45) (iblk1 V c 0 t) (iblk1 V c 1 t) j (((cfg1.win 2).blk t).view.emb j) ?_ ?_ ?_
  · show V c main_v44 (((cfg1.win 0).blk t).view.emb j) = V c main_v44 (((cfg1.win 2).blk t).view.emb j)
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · intro q
    show V c main_v45 (((cfg1.win 1).blk t).view.emb (ix2 (0 : Fin 1) q)) = V c main_v45 (ix2 (0 : Fin 1) q)
    refine congrArg (V c main_v45) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show win1_2.index t (1 : Fin 2) * 128 + 1 * (j 1).val = (j 1).val; omega

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every entry of the output is in the block of the point its row falls to. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [mem_blk]
  obtain ⟨e0, e1, e2, e3, e4, e5⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- The output array after the region: `biasRelu` of the arrays as the region finds them. -/
theorem final (c : Dev nD) : (dat1 V c).arrAt 2 cfg1.N = biasRelu (V c main_v44) (V c main_v45) :=
  (dat1 V c).arrAt_eq_of_cover 2 (biasRelu (V c main_v44) (V c main_v45)) (fun t _ => flushed_eq V c t) cover

end Cert.KernelIdeal.Act1

end
-- ==== Proof.Mul2.lean ====
/-
  The second layer's matrix-product region (pipeline 2 of @main), read as a function of whole arrays.

  The region's grid has twenty points. Point `t` stages rows `5000·t … 5000·t + 4999` of the `[100000, 128]` left
  matrix and the whole `[128, 128]` right matrix, and writes back the same rows of the `[100000, 128]` output. The body
  narrows both staged operands to a 16-bit format — the identity on the extended reals — and multiplies them into a zero
  accumulator: entry `(p, q)` of the block is the sum over `l` of the staged left entry `(p, l)` times the right entry
  `(l, q)`. A row of the product depends only on the same row of the left matrix, so what point `t` writes back is its
  block of ONE function of the whole matrices, their product, and the twenty blocks cover the output.
-/
import proofs.«134568_j4612794876643_1_alg».proof.Proof.Gen.KernelIdeal.Frame
import proofs.«134568_j4612794876643_1_alg».proof.Proof.Spec
import proofs.«134568_j4612794876643_1_alg».proof.Proof.LibRowOps
import Idealize.ShloMosaic.Lib.Pipeline.Value
import Idealize.ShloMosaic.Lib.ValueIdx

set_option maxRecDepth 16384

noncomputable section

namespace Cert.KernelIdeal.Mul2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The dimension numbers: the left operand's row is the result's row, its column the contracted coordinate; the right
    operand's row is the contracted coordinate, its column the result's column. -/

theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `(p, q)` of the block: the sum over `l` of the staged products. -/
theorem pay_apply (x0 : FVec Ideal S5000x128 .f32) (x1 : FVec Ideal S128x128 .f32) (p : Fin 5000) (q : Fin 128) :
    k2_pay1 x0 x1 (ix2 p q) = ∑ l : Fin 128, x0 (ix2 p l) * x1 (ix2 l q) := by
  unfold k2_pay1
  rw [shapeCast_self]
  exact Cert.LibRowOps.matmul_zero_apply dot_S5000x128_S128x128_S5000x128_1_0_0_1_n_n none
    (truncf .bf16 x0 bitsLt_bf16_f32) (truncf .bf16 x1 bitsLt_bf16_f32) rfl rfl lhs_row lhs_col rhs_row rhs_col p q

/-- The stored value at an entry of the block is the product of the whole matrices at the entry of the array it sits at,
    when the staged left rows are the left matrix's rows and the staged right matrix is the right matrix. -/
theorem entry_eq (A : FVec Ideal S100000x128 .f32) (W : FVec Ideal S128x128 .f32)
    (x0 : FVec Ideal S5000x128 .f32) (x1 : FVec Ideal S128x128 .f32) (y : S5000x128.Idx) (i : S100000x128.Idx)
    (h0 : ∀ l : Fin 128, x0 (ix2 (y 0 : Fin 5000) l) = A (ix2 (i 0 : Fin 100000) l))
    (h1 : ∀ (l : Fin 128) (q : Fin 128), x1 (ix2 l q) = W (ix2 l q)) (hq : (i 1).val = (y 1).val) :
    k2_pay1 x0 x1 y = matProd A W i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  rw [pay_apply, matProd_apply]
  exact Finset.sum_congr rfl fun l _ => by rw [show x0 (ix2 p l) = A (ix2 r l) from h0 l, h1 l s]

/-- The printed index maps over the grid: the left matrix's and the output's blocks are block `t` of the rows, the right
    matrix's is the one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block's entry `(p, l)` is the left matrix's entry at row `5000·t + p`. -/
theorem left_read (c : Dev nD) (t : Fin cfg2.N) (y : S5000x128.Idx) (k : S100000x128.Idx)
    (hk0 : (k 0).val = win2_0.index t (0 : Fin 2) * 5000 + (y 0).val) (hk1 : (k 1).val = win2_0.index t (1 : Fin 2) * 128 + (y 1).val) :
    iblk2 V c 0 t y = V c main_v46 k := by
  show V c main_v46 (((cfg2.win 0).blk t).view.emb y) = V c main_v46 k
  refine congrArg (V c main_v46) (funext fun a => Fin.ext ?_)
  match a with
  | ⟨0, _⟩ => show win2_0.index t (0 : Fin 2) * 5000 + 1 * (y 0).val = (k 0).val; omega
  | ⟨1, _⟩ => show win2_0.index t (1 : Fin 2) * 128 + 1 * (y 1).val = (k 1).val; omega

/-- The right block is the right matrix. -/
theorem right_read (c : Dev nD) (t : Fin cfg2.N) (y : S128x128.Idx)
    (h0 : win2_1.index t (0 : Fin 2) = 0) (h1 : win2_1.index t (1 : Fin 2) = 0) :
    iblk2 V c 1 t y = V c main_arg4 y := by
  show V c main_arg4 (((cfg2.win 1).blk t).view.emb y) = V c main_arg4 y
  refine congrArg (V c main_arg4) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point `t` writes back is block `t` of the product of the matrices as the region finds them. -/
theorem flushed_eq (c : Dev nD) (t : Fin cfg2.N) :
    (dat2 V c).flushed 2 t = ((cfg2.win 2).blk t).view.read (Elt Ideal) (matProd (V c main_v46) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  refine entry_eq (V c main_v46) (V c main_arg4) (iblk2 V c 0 t) (iblk2 V c 1 t) j (((cfg2.win 2).blk t).view.emb j) ?_ ?_ ?_
  · intro l
    refine left_read V c t _ _ ?_ ?_
    · show win2_2.index t (0 : Fin 2) * 5000 + 1 * (j 0).val = win2_0.index t (0 : Fin 2) * 5000 + (j 0).val; omega
    · show l.val = win2_0.index t (1 : Fin 2) * 128 + l.val; omega
  · intro l q
    exact right_read V c t _ e2 e3
  · show win2_2.index t (1 : Fin 2) * 128 + 1 * (j 1).val = (j 1).val; omega

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Every entry of the output is in the block of the point its row falls to. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- The output array after the region: the product of the matrices as the region finds them. -/
theorem final (c : Dev nD) : (dat2 V c).arrAt 2 cfg2.N = matProd (V c main_v46) (V c main_arg4) :=
  (dat2 V c).arrAt_eq_of_cover 2 (matProd (V c main_v46) (V c main_arg4)) (fun t _ => flushed_eq V c t) cover

end Cert.KernelIdeal.Mul2

end
-- ==== Proof.Act3.lean ====
/-
  The second layer's bias-and-clamp region (pipeline 3 of @main), read as a function of whole arrays.

  The region's grid has twenty points. Point `t` stages rows `5000·t … 5000·t + 4999` of the `[100000, 128]` input
  and the whole `[1, 128]` row, and writes back the same rows of the output. The body adds the row to every staged
  row and takes, entry by entry, the larger of that and the number the zero word denotes. So what point `t` writes
  back is its block of ONE function of the whole arrays, `biasRelu`, and the twenty blocks cover the output.
-/
import proofs.«134568_j4612794876643_1_alg».proof.Proof.Gen.KernelIdeal.Frame
import proofs.«134568_j4612794876643_1_alg».proof.Proof.Spec
import Idealize.ShloMosaic.Lib.Pipeline.Value
import Idealize.ShloMosaic.Lib.ValueIdx

set_option maxRecDepth 16384

noncomputable section

namespace Cert.KernelIdeal.Act3

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)` of the block: the staged entry plus the row's entry `q`, clamped below. -/
theorem pay_apply (x0 : FVec Ideal S5000x128 .f32) (x1 : FVec Ideal S1x128 .f32) (p : Fin 5000) (q : Fin 128) :
    k3_pay1 x0 x1 (ix2 p q) = max (x0 (ix2 p q) + x1 (ix2 (0 : Fin 1) q)) (Ideal.ofBits .f32 0x00000000#32) := by
  unfold k3_pay1
  rw [maximumf_apply, addf_apply, broadcast_apply, shapeCast_self, shapeCast_self]
  rw [broadcastTo_apply x1 broadcasts_S1x128_S5000x128 (ix2 p q) (ix2 (0 : Fin 1) q) (fun a => by
    match a with
    | ⟨0, _⟩ => rfl
    | ⟨1, _⟩ => rfl)]
  rfl

/-- The stored value at an entry of the block is `biasRelu` of the whole arrays at the entry of the array the block's
    entry sits at, when the staged input holds the array's entries of the same rows and the staged row is the row. -/
theorem entry_eq (A : FVec Ideal S100000x128 .f32) (B : FVec Ideal S1x128 .f32)
    (x0 : FVec Ideal S5000x128 .f32) (x1 : FVec Ideal S1x128 .f32) (y : S5000x128.Idx) (i : S100000x128.Idx)
    (h0 : x0 y = A i) (h1 : ∀ q : Fin 128, x1 (ix2 (0 : Fin 1) q) = B (ix2 (0 : Fin 1) q)) (hq : (i 1).val = (y 1).val) :
    k3_pay1 x0 x1 y = biasRelu A B i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  rw [pay_apply, biasRelu_apply, h0, h1]

/-- The printed index maps over the grid: the input's and the output's blocks are block `t` of the rows, the row's is
    the one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRelu` of the arrays as the region finds them. -/
theorem flushed_eq (c : Dev nD) (t : Fin cfg3.N) :
    (dat3 V c).flushed 2 t = ((cfg3.win 2).blk t).view.read (Elt Ideal) (biasRelu (V c main_v80) (V c main_v81)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  refine entry_eq (V c main_v80) (V c main_v81) (iblk3 V c 0 t) (iblk3 V c 1 t) j (((cfg3.win 2).blk t).view.emb j) ?_ ?_ ?_
  · show V c main_v80 (((cfg3.win 0).blk t).view.emb j) = V c main_v80 (((cfg3.win 2).blk t).view.emb j)
    refine congrArg (V c main_v80) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · intro q
    show V c main_v81 (((cfg3.win 1).blk t).view.emb (ix2 (0 : Fin 1) q)) = V c main_v81 (ix2 (0 : Fin 1) q)
    refine congrArg (V c main_v81) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show win3_2.index t (1 : Fin 2) * 128 + 1 * (j 1).val = (j 1).val; omega

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v82).slice (win3_2.rect t)).set ↔ _
  rw [View.set_slice_whole, Rect.mem_set_unit]
  exact Iff.rfl

/-- Every entry of the output is in the block of the point its row falls to. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_2 _, ?_⟩
  rw [mem_blk]
  obtain ⟨e0, e1, e2, e3, e4, e5⟩ := idx_facts ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e5]; omega

/-- The output array after the region: `biasRelu` of the arrays as the region finds them. -/
theorem final (c : Dev nD) : (dat3 V c).arrAt 2 cfg3.N = biasRelu (V c main_v80) (V c main_v81) :=
  (dat3 V c).arrAt_eq_of_cover 2 (biasRelu (V c main_v80) (V c main_v81)) (fun t _ => flushed_eq V c t) cover

end Cert.KernelIdeal.Act3

end
-- ==== Proof.Mul4.lean ====
/-
  The head's region (pipeline 4 of @main), read as a function of whole arrays.

  The region's grid has twenty points. Point `t` stages rows `5000·t … 5000·t + 4999` of the `[100000, 128]` left matrix,
  the whole `[128, 128]` right matrix and the whole `[1, 128]` row, and writes back the same rows of the `[100000, 128]`
  output. The body narrows the two matrix operands to a 16-bit format — the identity on the extended reals —, multiplies
  them into a zero accumulator and adds the row to every row of the product. So what point `t` writes back is its block of
  ONE function of the whole arrays, `matProdBias`, and the twenty blocks cover the output.
-/
import proofs.«134568_j4612794876643_1_alg».proof.Proof.Gen.KernelIdeal.Frame
import proofs.«134568_j4612794876643_1_alg».proof.Proof.Spec
import proofs.«134568_j4612794876643_1_alg».proof.Proof.LibRowOps
import Idealize.ShloMosaic.Lib.Pipeline.Value
import Idealize.ShloMosaic.Lib.ValueIdx

set_option maxRecDepth 16384

noncomputable section

namespace Cert.KernelIdeal.Mul4

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The dimension numbers: the left operand's row is the result's row, its column the contracted coordinate; the right
    operand's row is the contracted coordinate, its column the result's column. -/

theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `(p, q)` of the block: the sum over `l` of the staged products, plus the row's entry. -/
theorem pay_apply (x0 : FVec Ideal S5000x128 .f32) (x1 : FVec Ideal S128x128 .f32) (x2 : FVec Ideal S1x128 .f32) (p : Fin 5000) (q : Fin 128) :
    k4_pay1 x0 x1 x2 (ix2 p q) = (∑ l : Fin 128, x0 (ix2 p l) * x1 (ix2 l q)) + x2 (ix2 (0 : Fin 1) q) := by
  unfold k4_pay1
  rw [addf_apply, shapeCast_self, shapeCast_self, shapeCast_self]
  rw [broadcastTo_apply x2 broadcasts_S1x128_S5000x128 (ix2 p q) (ix2 (0 : Fin 1) q) (fun a => by
    match a with
    | ⟨0, _⟩ => rfl
    | ⟨1, _⟩ => rfl)]
  exact congrArg (· + x2 (ix2 (0 : Fin 1) q)) (Cert.LibRowOps.matmul_zero_apply dot_S5000x128_S128x128_S5000x128_1_0_0_1_n_n none
    (truncf .bf16 x0 bitsLt_bf16_f32) (truncf .bf16 x1 bitsLt_bf16_f32) rfl rfl lhs_row lhs_col rhs_row rhs_col p q)

/-- The stored value at an entry of the block is `matProdBias` of the whole arrays at the entry of the array it sits at,
    when the staged left rows are the left matrix's rows and the staged right matrix and row are the whole ones. -/
theorem entry_eq (A : FVec Ideal S100000x128 .f32) (W : FVec Ideal S128x128 .f32) (B : FVec Ideal S1x128 .f32)
    (x0 : FVec Ideal S5000x128 .f32) (x1 : FVec Ideal S128x128 .f32) (x2 : FVec Ideal S1x128 .f32) (y : S5000x128.Idx) (i : S100000x128.Idx)
    (h0 : ∀ l : Fin 128, x0 (ix2 (y 0 : Fin 5000) l) = A (ix2 (i 0 : Fin 100000) l))
    (h1 : ∀ (l : Fin 128) (q : Fin 128), x1 (ix2 l q) = W (ix2 l q))
    (h2 : ∀ q : Fin 128, x2 (ix2 (0 : Fin 1) q) = B (ix2 (0 : Fin 1) q)) (hq : (i 1).val = (y 1).val) :
    k4_pay1 x0 x1 x2 y = matProdBias A W B i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  rw [pay_apply, matProdBias_apply, h2]
  exact congrArg (· + B (ix2 (0 : Fin 1) s)) (Finset.sum_congr rfl fun l _ => by
    rw [show x0 (ix2 p l) = A (ix2 r l) from h0 l, h1 l s])

/-- The printed index maps over the grid: the left matrix's and the output's blocks are block `t` of the rows, the right
    matrix's and the row's are the one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The left block's entry is the left matrix's entry at row `5000·t + p`. -/
theorem left_read (c : Dev nD) (t : Fin cfg4.N) (y : S5000x128.Idx) (k : S100000x128.Idx)
    (hk0 : (k 0).val = win4_0.index t (0 : Fin 2) * 5000 + (y 0).val) (hk1 : (k 1).val = win4_0.index t (1 : Fin 2) * 128 + (y 1).val) :
    iblk4 V c 0 t y = V c main_v82 k := by
  show V c main_v82 (((cfg4.win 0).blk t).view.emb y) = V c main_v82 k
  refine congrArg (V c main_v82) (funext fun a => Fin.ext ?_)
  match a with
  | ⟨0, _⟩ => show win4_0.index t (0 : Fin 2) * 5000 + 1 * (y 0).val = (k 0).val; omega
  | ⟨1, _⟩ => show win4_0.index t (1 : Fin 2) * 128 + 1 * (y 1).val = (k 1).val; omega

/-- The right block is the right matrix. -/
theorem right_read (c : Dev nD) (t : Fin cfg4.N) (y : S128x128.Idx)
    (h0 : win4_1.index t (0 : Fin 2) = 0) (h1 : win4_1.index t (1 : Fin 2) = 0) :
    iblk4 V c 1 t y = V c main_v83 y := by
  show V c main_v83 (((cfg4.win 1).blk t).view.emb y) = V c main_v83 y
  refine congrArg (V c main_v83) (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The row's block is the row. -/
theorem row_read (c : Dev nD) (t : Fin cfg4.N) (y : S1x128.Idx)
    (h0 : win4_2.index t (0 : Fin 2) = 0) (h1 : win4_2.index t (1 : Fin 2) = 0) :
    iblk4 V c 2 t y = V c main_v85 y := by
  show V c main_v85 (((cfg4.win 2).blk t).view.emb y) = V c main_v85 y
  refine congrArg (V c main_v85) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- What point `t` writes back is block `t` of `matProdBias` of the arrays as the region finds them. -/
theorem flushed_eq (c : Dev nD) (t : Fin cfg4.N) :
    (dat4 V c).flushed 3 t = ((cfg4.win 3).blk t).view.read (Elt Ideal) (matProdBias (V c main_v82) (V c main_v83) (V c main_v85)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine entry_eq (V c main_v82) (V c main_v83) (V c main_v85) (iblk4 V c 0 t) (iblk4 V c 1 t) (iblk4 V c 2 t) j (((cfg4.win 3).blk t).view.emb j) ?_ ?_ ?_ ?_
  · intro l
    refine left_read V c t _ _ ?_ ?_
    · show win4_3.index t (0 : Fin 2) * 5000 + 1 * (j 0).val = win4_0.index t (0 : Fin 2) * 5000 + (j 0).val; omega
    · show l.val = win4_0.index t (1 : Fin 2) * 128 + l.val; omega
  · intro l q
    exact right_read V c t _ e2 e3
  · intro q
    exact row_read V c t _ e4 e5
  · show win4_3.index t (1 : Fin 2) * 128 + 1 * (j 1).val = (j 1).val; omega

/-- An index of the array is in point `t`'s block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v86).slice (win4_3.rect t)).set ↔ _
  rw [View.set_slice_whole, Rect.mem_set_unit]
  exact Iff.rfl

/-- Every entry of the output is in the block of the point its row falls to. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_3 _, ?_⟩
  rw [mem_blk]
  obtain ⟨e0, e1, e2, e3, e4, e5, e6, e7⟩ := idx_facts ⟨(i 0).val / 5000, by rw [hN]; omega⟩
  intro a
  match a with
  | ⟨0, _⟩ => show win4_3.index _ (0 : Fin 2) * 5000 ≤ (i 0).val ∧ (i 0).val < win4_3.index _ (0 : Fin 2) * 5000 + 5000; rw [e6]; show (i 0).val / 5000 * 5000 ≤ (i 0).val ∧ (i 0).val < (i 0).val / 5000 * 5000 + 5000; omega
  | ⟨1, _⟩ => show win4_3.index _ (1 : Fin 2) * 128 ≤ (i 1).val ∧ (i 1).val < win4_3.index _ (1 : Fin 2) * 128 + 128; rw [e7]; omega

/-- The output array after the region: `matProdBias` of the arrays as the region finds them. -/
theorem final (c : Dev nD) : (dat4 V c).arrAt 3 cfg4.N = matProdBias (V c main_v82) (V c main_v83) (V c main_v85) :=
  (dat4 V c).arrAt_eq_of_cover 3 (matProdBias (V c main_v82) (V c main_v83) (V c main_v85)) (fun t _ => flushed_eq V c t) cover

end Cert.KernelIdeal.Mul4

end
-- ==== Proof.KernelFold.lean ====
/-
  The idealized kernel's buffers at each segment boundary, as functions of the argument arrays.

  The contents at the end of @main are a fold through fourteen segments. Read backwards from the result: the result is
  columns `0 … 39` of the head region's output; that output is `matProdBias` of the second activation, the padded weight
  and the padded bias row; the second activation is `biasRelu` of the aggregation of the second product and the bias row;
  and so on down to the arguments. A stretch of host operations changes only the buffers its operations write, a region
  only its windows' arrays, so an argument or an edge-list buffer read at a later boundary is what it was when written.
  `H1`, `H2` name the two layers' activations.
-/
import proofs.«134568_j4612794876643_1_alg».proof.Proof.Gen.KernelIdeal.Frame
import proofs.«134568_j4612794876643_1_alg».proof.Proof.Spec
import proofs.«134568_j4612794876643_1_alg».proof.Proof.GlueK
import proofs.«134568_j4612794876643_1_alg».proof.Proof.KernelHead
import proofs.«134568_j4612794876643_1_alg».proof.Proof.Mul0
import proofs.«134568_j4612794876643_1_alg».proof.Proof.Act1
import proofs.«134568_j4612794876643_1_alg».proof.Proof.Mul2
import proofs.«134568_j4612794876643_1_alg».proof.Proof.Act3
import proofs.«134568_j4612794876643_1_alg».proof.Proof.Mul4
import Idealize.ShloMosaic.Lib.StableHlo.Run

set_option maxRecDepth 16384

noncomputable section

namespace Cert.KernelIdeal.Fold

open Cert.KernelIdeal Cert.KernelIdeal.Gen Cert.KernelIdeal.Glue Cert.GcnSpec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The first layer's activation: the first product aggregated, the bias row added, clamped below. -/
def H1 : FVec Ideal S100000x128 .f32 :=
  biasRelu (agg (srcOf (m ((c : Thread nD τ).loc main_arg1))) (dstOf (m ((c : Thread nD τ).loc main_arg1))) (dinvOf (dstOf (m ((c : Thread nD τ).loc main_arg1)))) (matProd (m ((c : Thread nD τ).loc main_arg0)) (m ((c : Thread nD τ).loc main_arg2)))) (rowOf (m ((c : Thread nD τ).loc main_arg3)))

/-- The second layer's activation. -/
def H2 : FVec Ideal S100000x128 .f32 :=
  biasRelu (agg (srcOf (m ((c : Thread nD τ).loc main_arg1))) (dstOf (m ((c : Thread nD τ).loc main_arg1))) (dinvOf (dstOf (m ((c : Thread nD τ).loc main_arg1)))) (matProd (H1 m c) (m ((c : Thread nD τ).loc main_arg4)))) (rowOf (m ((c : Thread nD τ).loc main_arg5)))

/-! ## After the first stretch of host operations (region 0's entry) -/
theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg7 : W1 m ρ c (Proc.devRef .tc main_arg7) = (m ((c : Thread nD τ).loc main_arg7)) := by
  show StableHlo.after hostOps0 (W0 m ρ c) (Proc.devRef .tc main_arg7) = _
  after_results_simp <;> rfl
theorem W1_v1 : W1 m ρ c (Proc.devRef .tc main_v1) = srcOf (m ((c : Thread nD τ).loc main_arg1)) := by
  show StableHlo.after hostOps0 (W0 m ρ c) (Proc.devRef .tc main_v1) = _
  after_results_simp <;> rfl
theorem W1_v3 : W1 m ρ c (Proc.devRef .tc main_v3) = dstOf (m ((c : Thread nD τ).loc main_arg1)) := by
  show StableHlo.after hostOps0 (W0 m ρ c) (Proc.devRef .tc main_v3) = _
  after_results_simp <;> rfl
theorem W1_v10 : W1 m ρ c (Proc.devRef .tc main_v10) = dinvOf (dstOf (m ((c : Thread nD τ).loc main_arg1))) := by
  show StableHlo.after hostOps0 (W0 m ρ c) (Proc.devRef .tc main_v10) = _
  after_results_simp <;> rfl

/-! ## After region 0: the first product -/

theorem W2_v11 : W2 m ρ c (Proc.devRef .tc main_v11) = matProd (m ((c : Thread nD τ).loc main_arg0)) (m ((c : Thread nD τ).loc main_arg2)) := by
  refine (W2_arr m ρ c 2).trans ((Cert.KernelIdeal.Mul0.final (V1 m ρ) c).trans ?_)
  show matProd (W1 m ρ c (Proc.devRef .tc main_arg0)) (W1 m ρ c (Proc.devRef .tc main_arg2)) = _
  rw [W1_arg0, W1_arg2]
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W2_v10 : W2 m ρ c (Proc.devRef .tc main_v10) = dinvOf (dstOf (m ((c : Thread nD τ).loc main_arg1))) :=
  (W2_of_ne m ρ c main_v10 (by decide)).trans (W1_v10 m ρ c)

/-! ## After the second stretch (region 1's entry): the first aggregation and the first bias row -/

theorem W3_v44 : W3 m ρ c (Proc.devRef .tc main_v44)
    = agg (srcOf (m ((c : Thread nD τ).loc main_arg1))) (dstOf (m ((c : Thread nD τ).loc main_arg1))) (dinvOf (dstOf (m ((c : Thread nD τ).loc main_arg1)))) (matProd (m ((c : Thread nD τ).loc main_arg0)) (m ((c : Thread nD τ).loc main_arg2))) := by
  have h : W3 m ρ c (Proc.devRef .tc main_v44)
      = agg (W2 m ρ c (Proc.devRef .tc main_v1)) (W2 m ρ c (Proc.devRef .tc main_v3)) (W2 m ρ c (Proc.devRef .tc main_v10)) (W2 m ρ c (Proc.devRef .tc main_v11)) := by
    show StableHlo.after hostOps1 (W2 m ρ c) (Proc.devRef .tc main_v44) = _
    after_results_simp <;> rfl
  rw [h, W2_v1, W2_v3, W2_v10, W2_v11]

theorem W3_v45 : W3 m ρ c (Proc.devRef .tc main_v45) = rowOf (m ((c : Thread nD τ).loc main_arg3)) := by
  have h : W3 m ρ c (Proc.devRef .tc main_v45) = shapeCast S1x128 (W2 m ρ c (Proc.devRef .tc main_arg3)) shapeCasts_S128_S1x128 := by
    show StableHlo.after hostOps1 (W2 m ρ c) (Proc.devRef .tc main_v45) = _
    after_results_simp <;> rfl
  rw [h, W2_arg3, Cert.KernelIdeal.Head.row_eq]
theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c
theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c
theorem W3_v1 : W3 m ρ c (Proc.devRef .tc main_v1) = srcOf (m ((c : Thread nD τ).loc main_arg1)) := by
  show StableHlo.after hostOps1 (W2 m ρ c) (Proc.devRef .tc main_v1) = _
  after_results_simp
  exact W2_v1 m ρ c
theorem W3_v3 : W3 m ρ c (Proc.devRef .tc main_v3) = dstOf (m ((c : Thread nD τ).loc main_arg1)) := by
  show StableHlo.after hostOps1 (W2 m ρ c) (Proc.devRef .tc main_v3) = _
  after_results_simp
  exact W2_v3 m ρ c
theorem W3_v10 : W3 m ρ c (Proc.devRef .tc main_v10) = dinvOf (dstOf (m ((c : Thread nD τ).loc main_arg1))) := by
  show StableHlo.after hostOps1 (W2 m ρ c) (Proc.devRef .tc main_v10) = _
  after_results_simp
  exact W2_v10 m ρ c

/-! ## After region 1: the first activation -/

theorem W4_v46 : W4 m ρ c (Proc.devRef .tc main_v46) = H1 m c := by
  refine (W4_arr m ρ c 2).trans ((Cert.KernelIdeal.Act1.final (V3 m ρ) c).trans ?_)
  show biasRelu (W3 m ρ c (Proc.devRef .tc main_v44)) (W3 m ρ c (Proc.devRef .tc main_v45)) = _
  rw [W3_v44, W3_v45]
  rfl
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_v1 : W4 m ρ c (Proc.devRef .tc main_v1) = srcOf (m ((c : Thread nD τ).loc main_arg1)) :=
  (W4_of_ne m ρ c main_v1 (by decide)).trans (W3_v1 m ρ c)
theorem W4_v3 : W4 m ρ c (Proc.devRef .tc main_v3) = dstOf (m ((c : Thread nD τ).loc main_arg1)) :=
  (W4_of_ne m ρ c main_v3 (by decide)).trans (W3_v3 m ρ c)
theorem W4_v10 : W4 m ρ c (Proc.devRef .tc main_v10) = dinvOf (dstOf (m ((c : Thread nD τ).loc main_arg1))) :=
  (W4_of_ne m ρ c main_v10 (by decide)).trans (W3_v10 m ρ c)

/-! ## After region 2: the second product -/

theorem W5_v47 : W5 m ρ c (Proc.devRef .tc main_v47) = matProd (H1 m c) (m ((c : Thread nD τ).loc main_arg4)) := by
  refine (W5_arr m ρ c 2).trans ((Cert.KernelIdeal.Mul2.final (V4 m ρ) c).trans ?_)
  show matProd (W4 m ρ c (Proc.devRef .tc main_v46)) (W4 m ρ c (Proc.devRef .tc main_arg4)) = _
  rw [W4_v46, W4_arg4]
theorem W5_arg5 : W5 m ρ c (Proc.devRef .tc main_arg5) = (m ((c : Thread nD τ).loc main_arg5)) :=
  (W5_of_ne m ρ c main_arg5 (by decide)).trans (W4_arg5 m ρ c)
theorem W5_arg6 : W5 m ρ c (Proc.devRef .tc main_arg6) = (m ((c : Thread nD τ).loc main_arg6)) :=
  (W5_of_ne m ρ c main_arg6 (by decide)).trans (W4_arg6 m ρ c)
theorem W5_arg7 : W5 m ρ c (Proc.devRef .tc main_arg7) = (m ((c : Thread nD τ).loc main_arg7)) :=
  (W5_of_ne m ρ c main_arg7 (by decide)).trans (W4_arg7 m ρ c)
theorem W5_v1 : W5 m ρ c (Proc.devRef .tc main_v1) = srcOf (m ((c : Thread nD τ).loc main_arg1)) :=
  (W5_of_ne m ρ c main_v1 (by decide)).trans (W4_v1 m ρ c)
theorem W5_v3 : W5 m ρ c (Proc.devRef .tc main_v3) = dstOf (m ((c : Thread nD τ).loc main_arg1)) :=
  (W5_of_ne m ρ c main_v3 (by decide)).trans (W4_v3 m ρ c)
theorem W5_v10 : W5 m ρ c (Proc.devRef .tc main_v10) = dinvOf (dstOf (m ((c : Thread nD τ).loc main_arg1))) :=
  (W5_of_ne m ρ c main_v10 (by decide)).trans (W4_v10 m ρ c)

/-! ## After the third stretch (region 3's entry): the second aggregation and the second bias row -/

theorem W6_v80 : W6 m ρ c (Proc.devRef .tc main_v80)
    = agg (srcOf (m ((c : Thread nD τ).loc main_arg1))) (dstOf (m ((c : Thread nD τ).loc main_arg1))) (dinvOf (dstOf (m ((c : Thread nD τ).loc main_arg1)))) (matProd (H1 m c) (m ((c : Thread nD τ).loc main_arg4))) := by
  have h : W6 m ρ c (Proc.devRef .tc main_v80)
      = agg (W5 m ρ c (Proc.devRef .tc main_v1)) (W5 m ρ c (Proc.devRef .tc main_v3)) (W5 m ρ c (Proc.devRef .tc main_v10)) (W5 m ρ c (Proc.devRef .tc main_v47)) := by
    show StableHlo.after hostOps3 (W5 m ρ c) (Proc.devRef .tc main_v80) = _
    after_results_simp <;> rfl
  rw [h, W5_v1, W5_v3, W5_v10, W5_v47]

theorem W6_v81 : W6 m ρ c (Proc.devRef .tc main_v81) = rowOf (m ((c : Thread nD τ).loc main_arg5)) := by
  have h : W6 m ρ c (Proc.devRef .tc main_v81) = shapeCast S1x128 (W5 m ρ c (Proc.devRef .tc main_arg5)) shapeCasts_S128_S1x128 := by
    show StableHlo.after hostOps3 (W5 m ρ c) (Proc.devRef .tc main_v81) = _
    after_results_simp <;> rfl
  rw [h, W5_arg5, Cert.KernelIdeal.Head.row_eq]
theorem W6_arg6 : W6 m ρ c (Proc.devRef .tc main_arg6) = (m ((c : Thread nD τ).loc main_arg6)) := by
  show StableHlo.after hostOps3 (W5 m ρ c) (Proc.devRef .tc main_arg6) = _
  after_results_simp
  exact W5_arg6 m ρ c
theorem W6_arg7 : W6 m ρ c (Proc.devRef .tc main_arg7) = (m ((c : Thread nD τ).loc main_arg7)) := by
  show StableHlo.after hostOps3 (W5 m ρ c) (Proc.devRef .tc main_arg7) = _
  after_results_simp
  exact W5_arg7 m ρ c

/-! ## After region 3: the second activation -/

theorem W7_v82 : W7 m ρ c (Proc.devRef .tc main_v82) = H2 m c := by
  refine (W7_arr m ρ c 2).trans ((Cert.KernelIdeal.Act3.final (V6 m ρ) c).trans ?_)
  show biasRelu (W6 m ρ c (Proc.devRef .tc main_v80)) (W6 m ρ c (Proc.devRef .tc main_v81)) = _
  rw [W6_v80, W6_v81]
  rfl
theorem W7_arg6 : W7 m ρ c (Proc.devRef .tc main_arg6) = (m ((c : Thread nD τ).loc main_arg6)) :=
  (W7_of_ne m ρ c main_arg6 (by decide)).trans (W6_arg6 m ρ c)
theorem W7_arg7 : W7 m ρ c (Proc.devRef .tc main_arg7) = (m ((c : Thread nD τ).loc main_arg7)) :=
  (W7_of_ne m ρ c main_arg7 (by decide)).trans (W6_arg7 m ρ c)

/-! ## After the five short stretches (region 4's entry): the padded weight and the padded bias row -/

/-- The padding value both pads use: the integer zero converted to a float. -/
def padZero : FVec Ideal S_ .f32 := sitofp (F := Ideal) .f32 (constantI S_ 32 0#32)

theorem W12_v82 : W12 m ρ c (Proc.devRef .tc main_v82) = H2 m c := by
  show StableHlo.after hostOps4_4 (StableHlo.after hostOps4_3 (StableHlo.after hostOps4_2 (StableHlo.after hostOps4_1 (StableHlo.after hostOps4 (W7 m ρ c))))) (Proc.devRef .tc main_v82) = _
  after_results_simp
  exact W7_v82 m ρ c

theorem W12_v83 : W12 m ρ c (Proc.devRef .tc main_v83)
    = pad S128x128 ![0, 0] ![0, 88] ![0, 0] (m ((c : Thread nD τ).loc main_arg6)) padZero pads_S128x40_S128x128_000_0880 h_S_ := by
  have h : W12 m ρ c (Proc.devRef .tc main_v83)
      = pad S128x128 ![0, 0] ![0, 88] ![0, 0] (W7 m ρ c (Proc.devRef .tc main_arg6)) padZero pads_S128x40_S128x128_000_0880 h_S_ := by
    show StableHlo.after hostOps4_4 (StableHlo.after hostOps4_3 (StableHlo.after hostOps4_2 (StableHlo.after hostOps4_1 (StableHlo.after hostOps4 (W7 m ρ c))))) (Proc.devRef .tc main_v83) = _
    after_results_simp <;> rfl
  rw [h, W7_arg6]

theorem W12_v85 : W12 m ρ c (Proc.devRef .tc main_v85)
    = shapeCast S1x128 (pad S128 ![0] ![88] ![0] (m ((c : Thread nD τ).loc main_arg7)) padZero pads_S40_S128_0880 h_S_) shapeCasts_S128_S1x128 := by
  have h : W12 m ρ c (Proc.devRef .tc main_v85)
      = shapeCast S1x128 (pad S128 ![0] ![88] ![0] (W7 m ρ c (Proc.devRef .tc main_arg7)) padZero pads_S40_S128_0880 h_S_) shapeCasts_S128_S1x128 := by
    show StableHlo.after hostOps4_4 (StableHlo.after hostOps4_3 (StableHlo.after hostOps4_2 (StableHlo.after hostOps4_1 (StableHlo.after hostOps4 (W7 m ρ c))))) (Proc.devRef .tc main_v85) = _
    after_results_simp <;> rfl
  rw [h, W7_arg7]

/-! ## After region 4 and the last slice: the result -/

theorem W13_v86 : W13 m ρ c (Proc.devRef .tc main_v86)
    = matProdBias (H2 m c) (pad S128x128 ![0, 0] ![0, 88] ![0, 0] (m ((c : Thread nD τ).loc main_arg6)) padZero pads_S128x40_S128x128_000_0880 h_S_)
        (shapeCast S1x128 (pad S128 ![0] ![88] ![0] (m ((c : Thread nD τ).loc main_arg7)) padZero pads_S40_S128_0880 h_S_) shapeCasts_S128_S1x128) := by
  refine (W13_arr m ρ c 3).trans ((Cert.KernelIdeal.Mul4.final (V12 m ρ) c).trans ?_)
  show matProdBias (W12 m ρ c (Proc.devRef .tc main_v82)) (W12 m ρ c (Proc.devRef .tc main_v83)) (W12 m ρ c (Proc.devRef .tc main_v85)) = _
  rw [W12_v82, W12_v83, W12_v85]

/-- The result buffer at the end of @main: the head of the second activation. -/
theorem result : W14 m ρ c (Proc.devRef .tc main_v87) = matProdBias (H2 m c) (m ((c : Thread nD τ).loc main_arg6)) (rowOf (m ((c : Thread nD τ).loc main_arg7))) := by
  have h : W14 m ρ c (Proc.devRef .tc main_v87)
      = extractStridedSlice S100000x40 ![0, 0] (W13 m ρ c (Proc.devRef .tc main_v86)) slices_S100000x128_S100000x40_0_0 := by
    show StableHlo.after hostOps5 (W13 m ρ c) (Proc.devRef .tc main_v87) = _
    after_results_simp <;> rfl
  rw [h, W13_v86]
  exact Cert.KernelIdeal.Head.head_slice (H2 m c) _ _ padZero padZero

end Cert.KernelIdeal.Fold

end
-- ==== Proof.GlueR.lean ====
/-
  The sparse part of a graph-convolution layer on the host, as functions of whole arrays: the edge list's two rows, an
  index wrapped into range, the inverse square root of the in-degree plus one, and the normalized aggregation — the sum
  over edges `(s → d)` of `h[s] · (dinv[s] · dinv[d])` into row `d`, plus the self term `h · dinv²`. They are carried as
  they are printed and never opened: both programs apply the same operations to their dense stages' results.
-/
import proofs.«134568_j4612794876643_1_alg».proof.Proof.Gen.ReferenceIdeal
import Idealize.ShloMosaic.PureOps.Ideal

noncomputable section

namespace Cert.ReferenceIdeal.Glue

open Cert.ReferenceIdeal Cert.ReferenceIdeal.Gen Idealize.ShloMosaic

/-- Row 0 of the `[2, E]` edge list: the edges' sources. -/
def srcOf (e : IVec S2x1600000 32) : IVec S1600000 32 :=
  shapeCast _ (extractStridedSlice S1x1600000 ![0, 0] e slices_S2x1600000_S1x1600000_0_0) shapeCasts_S1x1600000_S1600000

/-- Row 1 of the edge list: the edges' destinations. -/
def dstOf (e : IVec S2x1600000 32) : IVec S1600000 32 :=
  shapeCast _ (extractStridedSlice S1x1600000 ![1, 0] e slices_S2x1600000_S1x1600000_1_0) shapeCasts_S1x1600000_S1600000

/-- A negative index counted from the end: `v + 100000` where `v < 0`, else `v`. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- `rsqrt (in-degree + 1)`: ones scattered-and-added by destination, plus one, inverse square root. -/
def dinvOf (d : IVec S1600000 32) : FVec Ideal S100000 .f32 :=
  Host.rsqrt (F := Ideal) (addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32)))

/-- The normalized aggregation of `h` over the edges `(s → d)` with the self term. -/
def agg (s d : IVec S1600000 32) (dv : FVec Ideal S100000 .f32) (h : FVec Ideal S100000x128 .f32) : FVec Ideal S100000x128 .f32 :=
  addf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (mulf
        (Host.gather gather_S100000x128_S1600000x1_S1600000x128_1_0_n_n_0_1_1128 h
          (broadcastInDim S1600000x1 ![0] bcast_S1600000_S1600000x1_0 (wrap s)))
        (broadcastInDim S1600000x128 ![0, 1] bcast_S1600000x1_S1600000x128_0_1
          (broadcastInDim S1600000x1 ![0] bcast_S1600000_S1600000x1_0
            (mulf
              (Host.gather gather_S100000_S1600000x1_S1600000_n_0_n_n_0_1_1 dv
                (broadcastInDim S1600000x1 ![0] bcast_S1600000_S1600000x1_0 (wrap s)))
              (Host.gather gather_S100000_S1600000x1_S1600000_n_0_n_n_0_1_1 dv
                (broadcastInDim S1600000x1 ![0] bcast_S1600000_S1600000x1_0 (wrap d))))))))
    (mulf h (broadcastInDim S100000x128 ![0, 1] bcast_S100000x1_S100000x128_0_1
      (broadcastInDim S100000x1 ![0] bcast_S100000_S100000x1_0 (mulf dv dv))))

end Cert.ReferenceIdeal.Glue

end
-- ==== Proof.LibHostDot.lean ====
/-
  A host matrix product read at an index, on the extended reals.

  The product of an `[m, k]` matrix with a `[k, n]` matrix computed on the host (a `dot_general` with one contracted
  axis and no batch axis), read at `(p, c)`, is the sum over `x` of the left matrix at `(p, x)` times the right matrix
  at `(x, c)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibHostDot

open Idealize.ShloMosaic Idealize.ShloMosaic.ValueIdx

/-- A host matrix product read at `(p, c)`: the sum over the contracted coordinate `x` of the left operand at
    `(p, x)` times the right operand at `(x, c)`. -/
theorem hostDot_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    Host.dotGeneral d prec lhs rhs (ix2 p c) = ∑ x : Fin k, lhs (ix2 p x) * rhs (ix2 x c) := by
  simp only [Host.dotGeneral]
  rw [Ideal.dotGeneral_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibHostDot

end
-- ==== Proof.RefDense.lean ====
/-
  The reference's dense stages, each as a function of whole arrays on the extended reals.

  * A host matrix product is `matProd`: entry `(p, c)` is the sum over the contracted coordinate of the products.
  * A bias vector broadcast along the rows and added, then the entry-by-entry maximum with a zero array, is `biasRelu`
    with the vector as a row.
  * The last product with its bias vector broadcast along the rows and added is `matProdBias` with the vector as a row.
-/
import proofs.«134568_j4612794876643_1_alg».proof.Proof.Gen.ReferenceIdeal.Read
import proofs.«134568_j4612794876643_1_alg».proof.Proof.Spec
import proofs.«134568_j4612794876643_1_alg».proof.Proof.LibHostDot
import Idealize.ShloMosaic.Lib.Pipeline.Value
import Idealize.ShloMosaic.Lib.ValueIdx

noncomputable section

namespace Cert.ReferenceIdeal.Dense

open Cert.ReferenceIdeal Cert.ReferenceIdeal.Gen Cert.ReferenceIdeal.Read Cert.GcnSpec
open Idealize.ShloMosaic Idealize.ShloMosaic.ValueIdx

/-- The first layer's product `x · W₁`. -/
theorem dot_in (x : FVec Ideal S100000x256 .f32) (w : FVec Ideal S256x128 .f32) :
    Host.dotGeneral dot_S100000x256_S256x128_S100000x128_1_0_0_1_n_n none x w = matProd x w := by
  funext i
  obtain ⟨p, c, rfl⟩ : ∃ (p : Fin 100000) (c : Fin 128), i = ix2 p c := ⟨i 0, i 1, eq_ix2 i⟩
  exact Cert.LibHostDot.hostDot_apply dot_S100000x256_S256x128_S100000x128_1_0_0_1_n_n none x w rfl rfl
    (fun j q => lhs_main_v4_0 j q) (fun j q => lhs_main_v4_1 j q) (fun j q => rhs_main_v4_0 j q) (fun j q => rhs_main_v4_1 j q) p c

/-- The second layer's product `h₁ · W₂`. -/
theorem dot_hid (x : FVec Ideal S100000x128 .f32) (w : FVec Ideal S128x128 .f32) :
    Host.dotGeneral dot_S100000x128_S128x128_S100000x128_1_0_0_1_n_n none x w = matProd x w := by
  funext i
  obtain ⟨p, c, rfl⟩ : ∃ (p : Fin 100000) (c : Fin 128), i = ix2 p c := ⟨i 0, i 1, eq_ix2 i⟩
  exact Cert.LibHostDot.hostDot_apply dot_S100000x128_S128x128_S100000x128_1_0_0_1_n_n none x w rfl rfl
    (fun j q => lhs_main_v49_0 j q) (fun j q => lhs_main_v49_1 j q) (fun j q => rhs_main_v49_0 j q) (fun j q => rhs_main_v49_1 j q) p c

/-- The head's product `h₂ · W_c`. -/
theorem dot_out (x : FVec Ideal S100000x128 .f32) (w : FVec Ideal S128x40 .f32) :
    Host.dotGeneral dot_S100000x128_S128x40_S100000x40_1_0_0_1_n_n none x w = matProd x w := by
  funext i
  obtain ⟨p, c, rfl⟩ : ∃ (p : Fin 100000) (c : Fin 40), i = ix2 p c := ⟨i 0, i 1, eq_ix2 i⟩
  exact Cert.LibHostDot.hostDot_apply dot_S100000x128_S128x40_S100000x40_1_0_0_1_n_n none x w rfl rfl
    (fun j q => lhs_main_v94_0 j q) (fun j q => lhs_main_v94_1 j q) (fun j q => rhs_main_v94_0 j q) (fun j q => rhs_main_v94_1 j q) p c

/-- A `[128]` vector broadcast to a `[1, 128]` row and then along the `100000` rows, read at `(p, c)`: entry `c`. -/
theorem bias_rows_apply (b : FVec Ideal S128 .f32) (p : Fin 100000) (c : Fin 128) :
    broadcastInDim S100000x128 ![0, 1] bcast_S1x128_S100000x128_0_1 (broadcastInDim S1x128 ![1] bcast_S128_S1x128_1 b) (ix2 p c)
      = b (ix1 c) := by
  rw [broadcastInDim_apply ![0, 1] bcast_S1x128_S100000x128_0_1 _ (ix2 p c) (ix2 (0 : Fin 1) c) (fun a => by
    match a with
    | ⟨0, _⟩ => rfl
    | ⟨1, _⟩ => rfl)]
  exact broadcastInDim_apply ![1] bcast_S128_S1x128_1 b (ix2 (0 : Fin 1) c) (ix1 c) (fun a => by
    match a with
    | ⟨0, _⟩ => rfl)

/-- A layer's activation: the bias added along the rows, then the maximum with the zero array. -/
theorem act_eq (a : FVec Ideal S100000x128 .f32) (b : FVec Ideal S128 .f32) :
    maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = biasRelu a (rowOf b) := by
  funext i
  obtain ⟨p, c, rfl⟩ : ∃ (p : Fin 100000) (c : Fin 128), i = ix2 p c := ⟨i 0, i 1, eq_ix2 i⟩
  rw [maximumf_apply, addf_apply, bias_rows_apply, biasRelu_apply, rowOf_apply]
  rw [broadcastInDim_apply ![] bcast_S_S100000x128 (constant (F := Ideal) S_ .f32 0x00000000#32) (ix2 p c) ix0 (fun a => a.elim0)]
  rfl

/-- The head: the product with the `[40]` bias broadcast to a row and along the rows, added. -/
theorem head_eq (h : FVec Ideal S100000x128 .f32) (w : FVec Ideal S128x40 .f32) (b : FVec Ideal S40 .f32) :
    addf (Host.dotGeneral dot_S100000x128_S128x40_S100000x40_1_0_0_1_n_n none h w)
        (broadcastInDim S100000x40 ![0, 1] bcast_S1x40_S100000x40_0_1 (broadcastInDim S1x40 ![1] bcast_S40_S1x40_1 b))
      = matProdBias h w (rowOf b) := by
  rw [dot_out]
  funext i
  obtain ⟨p, c, rfl⟩ : ∃ (p : Fin 100000) (c : Fin 40), i = ix2 p c := ⟨i 0, i 1, eq_ix2 i⟩
  rw [addf_apply, matProdBias_apply, rowOf_apply, matProd_apply]
  rw [broadcastInDim_apply ![0, 1] bcast_S1x40_S100000x40_0_1 _ (ix2 p c) (ix2 (0 : Fin 1) c) (fun a => by
    match a with
    | ⟨0, _⟩ => rfl
    | ⟨1, _⟩ => rfl)]
  rw [broadcastInDim_apply ![1] bcast_S40_S1x40_1 b (ix2 (0 : Fin 1) c) (ix1 c) (fun a => by
    match a with
    | ⟨0, _⟩ => rfl)]

end Cert.ReferenceIdeal.Dense

end
-- ==== Proof.RefValue.lean ====
/-
  The reference's result as a function of the argument arrays.

  The reference is two graph-convolution layers and a linear head on the host: a matrix product, the normalized
  aggregation over the edges, the bias added along the rows and the maximum with zero, twice; then a product with the
  bias added along the rows. Its run's term is that composition; each product is `matProd`, each activation `biasRelu`
  with the bias as a row, the head `matProdBias`, and the aggregation is carried as it is printed. `H1`, `H2` name the two
  layers' activations.
-/
import proofs.«134568_j4612794876643_1_alg».proof.Proof.Gen.ReferenceIdeal.Run
import proofs.«134568_j4612794876643_1_alg».proof.Proof.Spec
import proofs.«134568_j4612794876643_1_alg».proof.Proof.GlueR
import proofs.«134568_j4612794876643_1_alg».proof.Proof.RefDense

set_option maxRecDepth 16384

noncomputable section

namespace Cert.ReferenceIdeal.Whole

open Cert.ReferenceIdeal Cert.ReferenceIdeal.Gen Cert.ReferenceIdeal.Glue Cert.ReferenceIdeal.Dense Cert.GcnSpec
open Idealize.ShloMosaic Idealize.ShloMosaic.TcCoe Idealize.SL.Sem

variable (m : (ℓ : Loc nD τ sig) → Buf (Elt Ideal) ℓ) (c : Dev nD)

/-- The first layer's activation: the first product aggregated, the bias row added, clamped below. -/
def H1 : FVec Ideal S100000x128 .f32 :=
  biasRelu (agg (srcOf (m ((c.tc : Thread nD τ).loc main_arg1))) (dstOf (m ((c.tc : Thread nD τ).loc main_arg1))) (dinvOf (dstOf (m ((c.tc : Thread nD τ).loc main_arg1)))) (matProd (m ((c.tc : Thread nD τ).loc main_arg0)) (m ((c.tc : Thread nD τ).loc main_arg2)))) (rowOf (m ((c.tc : Thread nD τ).loc main_arg3)))

/-- The second layer's activation. -/
def H2 : FVec Ideal S100000x128 .f32 :=
  biasRelu (agg (srcOf (m ((c.tc : Thread nD τ).loc main_arg1))) (dstOf (m ((c.tc : Thread nD τ).loc main_arg1))) (dinvOf (dstOf (m ((c.tc : Thread nD τ).loc main_arg1)))) (matProd (H1 m c) (m ((c.tc : Thread nD τ).loc main_arg4)))) (rowOf (m ((c.tc : Thread nD τ).loc main_arg5)))

set_option maxHeartbeats 4000000 in
/-- The run's term is the two layers and the head composed, the edge-list operations named. -/
theorem term_eq : Cert.ReferenceIdeal.Value.res_main_v97 (F := Ideal) m c
    = addf (Host.dotGeneral (φ₁ := .f32) (φ₂ := .f32) dot_S100000x128_S128x40_S100000x40_1_0_0_1_n_n none (maximumf (addf (agg (srcOf (m ((c.tc : Thread nD τ).loc main_arg1))) (dstOf (m ((c.tc : Thread nD τ).loc main_arg1))) (dinvOf (dstOf (m ((c.tc : Thread nD τ).loc main_arg1)))) (Host.dotGeneral (φ₁ := .f32) (φ₂ := .f32) dot_S100000x128_S128x128_S100000x128_1_0_0_1_n_n none (maximumf (addf (agg (srcOf (m ((c.tc : Thread nD τ).loc main_arg1))) (dstOf (m ((c.tc : Thread nD τ).loc main_arg1))) (dinvOf (dstOf (m ((c.tc : Thread nD τ).loc main_arg1)))) (Host.dotGeneral (φ₁ := .f32) (φ₂ := .f32) dot_S100000x256_S256x128_S100000x128_1_0_0_1_n_n none (m ((c.tc : Thread nD τ).loc main_arg0)) (m ((c.tc : Thread nD τ).loc main_arg2)))) (broadcastInDim S100000x128 ![0, 1] bcast_S1x128_S100000x128_0_1 (broadcastInDim S1x128 ![1] bcast_S128_S1x128_1 (m ((c.tc : Thread nD τ).loc main_arg3))))) (broadcastInDim S100000x128 ![] bcast_S_S100000x128 (constant (F := Ideal) S_ .f32 0x00000000#32))) (m ((c.tc : Thread nD τ).loc main_arg4)))) (broadcastInDim S100000x128 ![0, 1] bcast_S1x128_S100000x128_0_1 (broadcastInDim S1x128 ![1] bcast_S128_S1x128_1 (m ((c.tc : Thread nD τ).loc main_arg5))))) (broadcastInDim S100000x128 ![] bcast_S_S100000x128 (constant (F := Ideal) S_ .f32 0x00000000#32))) (m ((c.tc : Thread nD τ).loc main_arg6))) (broadcastInDim S100000x40 ![0, 1] bcast_S1x40_S100000x40_0_1 (broadcastInDim S1x40 ![1] bcast_S40_S1x40_1 (m ((c.tc : Thread nD τ).loc main_arg7)))) := by
  unfold Cert.ReferenceIdeal.Value.res_main_v97
  rfl

/-- The reference's result: the head of the second activation. -/
theorem result : Cert.ReferenceIdeal.Value.res_main_v97 (F := Ideal) m c
    = matProdBias (H2 m c) (m ((c.tc : Thread nD τ).loc main_arg6)) (rowOf (m ((c.tc : Thread nD τ).loc main_arg7))) := by
  rw [term_eq, head_eq, act_eq, dot_hid, act_eq, dot_in]
  rfl

end Cert.ReferenceIdeal.Whole

end
-- ==== Proof.lean ====
/-
  A two-layer graph convolution with a linear head: a kernel in five pipelined regions against its whole-array
  reference, equal on the extended reals.

  Both programs compute, for node features `x`, an edge list `e` and weights `W₁, b₁, W₂, b₂, W_c, b_c`,

      H₁ = max (agg (x · W₁) + b₁, 0),   H₂ = max (agg (H₁ · W₂) + b₂, 0),   out = H₂ · W_c + b_c,

  where `agg` is the symmetric-normalized sum over the edges with the self term. The kernel computes the three products
  and the two bias-and-clamp steps in five pipelined regions, each over twenty blocks of 5000 rows, with the operands of
  the products narrowed to a 16-bit format (the identity on the extended reals), and the head at width 128 with the
  weight and bias padded and the result cut back to 40 columns; the reference computes them as whole-array host
  operations. `agg`, the inverse square root of the degrees and the index arithmetic are the same host operations in
  both programs and are never opened.

  * Each region's output array is one function of its input arrays (`Mul0`, `Act1`, `Mul2`, `Act3`, `Mul4`): a row block
    of a product depends only on the same rows of the left operand, and a sum on the extended reals may be taken in any
    grouping, so the blocks are restrictions of the whole product.
  * The kernel's buffers at each segment boundary, read back to the arguments (`KernelFold`), over the run that names
    every buffer (`KernelRun`); the reference's run term as the same composition (`RefValue`, `RefDense`).
  * The two copies of the shared host operations, written once against each program's shapes, are one function.

  No law used here needs finite inputs: the precondition is not opened.
-/
import proofs.«134568_j4612794876643_1_alg».proof.Defs
import proofs.«134568_j4612794876643_1_alg».proof.Proof.Gen.Kernel
import proofs.«134568_j4612794876643_1_alg».proof.Proof.Gen.Kernel.Frame
import proofs.«134568_j4612794876643_1_alg».proof.Proof.Gen.KernelIdeal
import proofs.«134568_j4612794876643_1_alg».proof.Proof.Gen.KernelIdeal.Frame
import proofs.«134568_j4612794876643_1_alg».proof.Proof.Gen.ReferenceIdeal
import proofs.«134568_j4612794876643_1_alg».proof.Proof.Gen.ReferenceIdeal.Run
import proofs.«134568_j4612794876643_1_alg».proof.Proof.Gen.ReferenceIdeal.Read
import proofs.«134568_j4612794876643_1_alg».proof.Proof.Gen.Pre_finite_inputs
import proofs.«134568_j4612794876643_1_alg».proof.Proof.KernelRun
import proofs.«134568_j4612794876643_1_alg».proof.Proof.KernelFold
import proofs.«134568_j4612794876643_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.GcnSpec

/-! ## The shared host operations are one function in both programs -/

theorem srcOf_eq : Cert.KernelIdeal.Glue.srcOf = Cert.ReferenceIdeal.Glue.srcOf := rfl
theorem dstOf_eq : Cert.KernelIdeal.Glue.dstOf = Cert.ReferenceIdeal.Glue.dstOf := rfl
theorem dinvOf_eq : Cert.KernelIdeal.Glue.dinvOf = Cert.ReferenceIdeal.Glue.dinvOf := rfl
theorem agg_eq : Cert.KernelIdeal.Glue.agg = Cert.ReferenceIdeal.Glue.agg := rfl

/-- The second activations agree when the arguments do. -/
theorem H2_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Whole.H2 m' c = Cert.KernelIdeal.Fold.H2 m c := by
  unfold Cert.ReferenceIdeal.Whole.H2 Cert.ReferenceIdeal.Whole.H1 Cert.KernelIdeal.Fold.H2 Cert.KernelIdeal.Fold.H1
  rw [h0, h1, h2, h3, h4, h5, ← srcOf_eq, ← dstOf_eq, ← dinvOf_eq, ← agg_eq]

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- From memories agreeing on the arguments both programs end with the head of the second activation. -/
theorem algebraic : Cert.algebraic_KernelIdeal_ReferenceIdeal := by
  intro m ρ m' ρ' _ hagree
  refine ⟨fun c => matProdBias (Cert.KernelIdeal.Fold.H2 m c)
      (m ((c.tc : Thread Cert.KernelIdeal.nD Cert.KernelIdeal.τ).loc Cert.KernelIdeal.main_arg6))
      (rowOf (m ((c.tc : Thread Cert.KernelIdeal.nD Cert.KernelIdeal.τ).loc Cert.KernelIdeal.main_arg7))), ?_, ?_⟩
  · exact (θ_run Cert.KernelIdeal.defs _ _).mono (fun r h c =>
      ⟨(h c _ (Cert.KernelIdeal.Gen.mem_uc Cert.KernelIdeal.main_v87 (by decide))).trans (Cert.KernelIdeal.Fold.result m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Whole.result, H2_eq m m' c a0 a1 a2 a3 a4 a5, a6, a7]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
